-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S100000x1 : Shape := ⟨2, ![100000, 1]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S100000x1 : S_.BroadcastsInDim S100000x1 (![] : Fin 0 → Fin S100000x1.rank)
  reducesTo_S100000x1_S_d0_1 : S100000x1.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : FVec F S128x64 .f32) (main_arg2 : FVec F S100000x1 .f32) (main_arg3 : FVec F S64 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S128x64 : Shape := ⟨2, ![128, 64]⟩
abbrev S100000x1 : Shape := ⟨2, ![100000, 1]⟩
abbrev S64 : Shape := ⟨1, ![64]⟩
abbrev S1600000 : Shape := ⟨1, ![1600000]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 22
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S100000x1, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S1x64, .f32⟩
  | .hbm, ⟨21, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S100000x1 : Shape := ⟨2, ![100000, 1]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S100000x1, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S100000x64, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run with its result buffer named.

  The program is two pipelined regions with a stretch of host operations between them. Every weakly fair
  execution terminates without a fault, and in the final state every unscoped buffer holds the contents of the
  last segment boundary (`Gen.W3`: the launch memory carried through region 0's write-backs, the host stretch,
  and region 1's write-backs). Read at the result buffer this names the result; read at the six arguments it
  gives back the launch contents.
-/
import proofs.«106755_j3470333575494_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the six
    arguments as launched. -/
theorem run_named : θ_run defs (onTc (τ := τ) (main (F := F))) ⟨m, fun _ => 0, ρ⟩ (fun r => ∀ c : Dev nD,
      r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v12 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Hand

end
-- ==== Proof.Spec.lean ====
/-
  The value both programs end with, written once as functions of whole arrays over the extended reals.

  * `scaledProduct x w s`: entry (r, k) is the inner product of row r of `x` (100000 × 128) with column k of
    `w` (128 × 64), a sum of 128 products, multiplied by the r-th entry of the column `s` (100000 × 1).
  * `addBiasClamp a b`: entry (r, k) is `max (a(r, k) + b(k)) z`, `z` the float word zero read as an extended real;
    `addRowClamp` is the same with the 64 biases given as a 1 × 64 array.

  Between the two sits a gather of rows followed by a scatter-add of rows; both programs apply the same one to
  the scaled product, so it is carried as a function and never opened.
-/
import Idealize.ShloMosaic.PureOps.Ideal
import Idealize.ShloMosaic.Lib.ValueIdx

noncomputable section

namespace Cert.Spec

open Idealize.ShloMosaic Idealize.ShloMosaic.ValueIdx

/-- Row `r` of `x` against column `k` of `w`, scaled by the `r`-th entry of `s`. -/
def scaledProductAt (x : FVec Ideal ⟨2, ![100000, 128]⟩ .f32) (w : FVec Ideal ⟨2, ![128, 64]⟩ .f32)
    (s : FVec Ideal ⟨2, ![100000, 1]⟩ .f32) (r : Fin 100000) (k : Fin 64) : EReal :=
  (∑ q : Fin 128, x (ix2 r q) * w (ix2 q k)) * s (ix2 r (0 : Fin 1))

/-- The whole array of those entries. -/
def scaledProduct (x : FVec Ideal ⟨2, ![100000, 128]⟩ .f32) (w : FVec Ideal ⟨2, ![128, 64]⟩ .f32)
    (s : FVec Ideal ⟨2, ![100000, 1]⟩ .f32) : FVec Ideal ⟨2, ![100000, 64]⟩ .f32 :=
  fun i => scaledProductAt x w s (i 0) (i 1)

theorem scaledProduct_apply (x : FVec Ideal ⟨2, ![100000, 128]⟩ .f32) (w : FVec Ideal ⟨2, ![128, 64]⟩ .f32)
    (s : FVec Ideal ⟨2, ![100000, 1]⟩ .f32) (r : Fin 100000) (k : Fin 64) :
    scaledProduct x w s (ix2 r k) = scaledProductAt x w s r k := rfl

/-- Entry (r, k) of `a` plus the `k`-th bias, clamped below at zero. -/
def addBiasClampAt (a : FVec Ideal ⟨2, ![100000, 64]⟩ .f32) (b : FVec Ideal ⟨1, ![64]⟩ .f32) (r : Fin 100000) (k : Fin 64) : EReal :=
  max (a (ix2 r k) + b (ix1 k)) (Ideal.ofBits .f32 0x00000000#32)

/-- The whole array of those entries. -/
def addBiasClamp (a : FVec Ideal ⟨2, ![100000, 64]⟩ .f32) (b : FVec Ideal ⟨1, ![64]⟩ .f32) : FVec Ideal ⟨2, ![100000, 64]⟩ .f32 :=
  fun i => addBiasClampAt a b (i 0) (i 1)

theorem addBiasClamp_apply (a : FVec Ideal ⟨2, ![100000, 64]⟩ .f32) (b : FVec Ideal ⟨1, ![64]⟩ .f32) (r : Fin 100000) (k : Fin 64) :
    addBiasClamp a b (ix2 r k) = addBiasClampAt a b r k := rfl

/-- The same with the biases given as a one-row array (1 × 64): entry (r, k) is `max (a(r, k) + b(0, k)) z`. -/
def addRowClampAt (a : FVec Ideal ⟨2, ![100000, 64]⟩ .f32) (b : FVec Ideal ⟨2, ![1, 64]⟩ .f32) (r : Fin 100000) (k : Fin 64) : EReal :=
  max (a (ix2 r k) + b (ix2 (0 : Fin 1) k)) (Ideal.ofBits .f32 0x00000000#32)

def addRowClamp (a : FVec Ideal ⟨2, ![100000, 64]⟩ .f32) (b : FVec Ideal ⟨2, ![1, 64]⟩ .f32) : FVec Ideal ⟨2, ![100000, 64]⟩ .f32 :=
  fun i => addRowClampAt a b (i 0) (i 1)

theorem addRowClamp_apply (a : FVec Ideal ⟨2, ![100000, 64]⟩ .f32) (b : FVec Ideal ⟨2, ![1, 64]⟩ .f32) (r : Fin 100000) (k : Fin 64) :
    addRowClamp a b (ix2 r k) = addRowClampAt a b r k := rfl

end Cert.Spec

end
-- ==== Proof.Bodies.lean ====
/-
  The two kernel bodies' stored values read at an index of the block, at the exact instance.

  First body: the block of 5000 rows of `x` is multiplied into `w` (the change of float format before the
  product is the identity on extended reals, and the product accumulates into a zero block), then each row is
  scaled by that row's entry of the 5000 × 1 block of `s`. At (p, k): (∑ q, x(p, q) · w(q, k)) · s(p, 0).

  Second body: the one row of biases is added to every row of the 10000 × 64 block, and the sum is clamped
  below at zero. At (p, k): max (a(p, k) + b(0, k)) z.
-/
import proofs.«106755_j3470333575494_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The product's operand indices: output (p, k) and contraction index q read x at (p, q) and w at (q, k) -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at (p, k): the sum over the 128 contracted positions. -/
theorem product_apply (l : FVec Ideal S5000x128 .bf16) (r : FVec Ideal S128x64 .bf16) (p : Fin 5000) (k : Fin 64) :
    matmul (F := Ideal) dot_S5000x128_S128x64_S5000x64_1_0_0_1_n_n none l r (constant S5000x64 .f32 0x00000000#32) (ix2 p k)
      = ∑ q : Fin 128, l (ix2 p q) * r (ix2 q k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun q _ => ?_
  have hq := ValueIdx.contrEquiv1_symm_val dot_S5000x128_S128x64_S5000x64_1_0_0_1_n_n 128 rfl rfl q
  have el : dot_S5000x128_S128x64_S5000x64_1_0_0_1_n_n.lhsIdx (ix2 p k) ((ValueIdx.contrEquiv1 dot_S5000x128_S128x64_S5000x64_1_0_0_1_n_n 128 rfl rfl).symm q) = ix2 p q := funext fun a => Fin.ext (by
    match a with
    | ⟨0, _⟩ => exact lhs_row _ _
    | ⟨1, _⟩ => exact (lhs_col _ _).trans hq)
  have er : dot_S5000x128_S128x64_S5000x64_1_0_0_1_n_n.rhsIdx (ix2 p k) ((ValueIdx.contrEquiv1 dot_S5000x128_S128x64_S5000x64_1_0_0_1_n_n 128 rfl rfl).symm q) = ix2 q k := funext fun a => Fin.ext (by
    match a with
    | ⟨0, _⟩ => exact (rhs_row _ _).trans hq
    | ⟨1, _⟩ => exact rhs_col _ _)
  rw [el, er]

/-- A 5000 × 1 column spread over 64 columns, at (p, k): the column's p-th entry. -/
theorem spread_col_apply (s : FVec Ideal S5000x1 .f32) (p : Fin 5000) (k : Fin 64) :
    broadcastTo S5000x64 s broadcasts_S5000x1_S5000x64 (ix2 p k) = s (ix2 p (0 : Fin 1)) := by
  refine broadcastTo_apply s broadcasts_S5000x1_S5000x64 (ix2 p k) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else k.val; rw [if_pos rfl]

/-- The first body's stored value at (p, k). -/
theorem linear_norm_apply (x : Vec Ideal S5000x128 .f32) (w : Vec Ideal S128x64 .f32) (s : Vec Ideal S5000x1 .f32)
    (p : Fin 5000) (k : Fin 64) :
    k0_pay1 (F := Ideal) x w s (ix2 p k) = (∑ q : Fin 128, x (ix2 p q) * w (ix2 q k)) * s (ix2 p (0 : Fin 1)) := by
  unfold k0_pay1
  show matmul (F := Ideal) dot_S5000x128_S128x64_S5000x64_1_0_0_1_n_n none (truncf .bf16 x bitsLt_bf16_f32) (truncf .bf16 w bitsLt_bf16_f32) (constant S5000x64 .f32 0x00000000#32) (ix2 p k)
      * broadcastTo S5000x64 s broadcasts_S5000x1_S5000x64 (ix2 p k) = _
  rw [product_apply, spread_col_apply]
  rfl

/-- The second body's stored value at (p, k). -/
theorem bias_relu_apply (a : Vec Ideal S10000x64 .f32) (b : Vec Ideal S1x64 .f32) (p : Fin 10000) (k : Fin 64) :
    k1_pay1 (F := Ideal) a b (ix2 p k) = max (a (ix2 p k) + b (ix2 (0 : Fin 1) k)) (Ideal.ofBits .f32 0x00000000#32) := by
  unfold k1_pay1
  show max (shapeCast S10000x64 a shapeCasts_S10000x64_S10000x64 (ix2 p k)
        + broadcastTo S10000x64 (shapeCast S1x64 b shapeCasts_S1x64_S1x64) broadcasts_S1x64_S10000x64 (ix2 p k)) (Ideal.ofBits .f32 0x00000000#32) = _
  rw [shapeCast_self, shapeCast_self, broadcastTo_1b_ab_apply]

end Cert.KernelIdeal.Hand

end
-- ==== Proof.Region0.lean ====
/-
  Region 0 (the linear transform with the row scale), for ANY contents `V` of the buffers at its entry.

  Its grid has 20 points; point t handles rows 5000·t … 5000·t + 4999. The blocks of `x`, of the column `s` and of
  the output sit at block row t; `w` is one block, resident. So what point t writes back is rows
  5000·t … of ONE whole-array function, the scaled product of the three input arrays, and the 20 blocks tile the
  100000 rows: after the region the output array is the scaled product.
-/
import proofs.«106755_j3470333575494_2_alg».proof.Proof.Gen.KernelIdeal.Frame
import proofs.«106755_j3470333575494_2_alg».proof.Proof.Spec
import proofs.«106755_j3470333575494_2_alg».proof.Proof.Bodies
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of region 0's four windows, decided over the 20 grid points: the row-tiled windows are at
    block row t and block column 0, the resident one at (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of `x` at (p, q) is the array at row 5000·t + p. -/
theorem x_block_apply (c : Dev nD) (t : Fin cfg0.N) (p : Fin 5000) (q : Fin 128) (r : Fin 100000) (hr : r.val = t.val * 5000 + p.val) :
    (iblk0 V c 0 t : Vec Ideal S5000x128 .f32) (ix2 p q) = (V c main_arg0 : S100000x128.Idx → EReal) (ix2 r q) := by
  obtain ⟨e0, e1, -⟩ := index_facts0 t
  show (V c main_arg0 : S100000x128.Idx → EReal) (((cfg0.win 0).blk t).view.emb (ix2 p q)) = _
  refine congrArg (V c main_arg0 : S100000x128.Idx → EReal) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * q.val = q.val; rw [e1]; omega

/-- The one block of `w` is the array. -/
theorem w_block_apply (c : Dev nD) (t : Fin cfg0.N) (q : Fin 128) (k : Fin 64) :
    (iblk0 V c 1 t : Vec Ideal S128x64 .f32) (ix2 q k) = (V c main_arg1 : S128x64.Idx → EReal) (ix2 q k) := by
  obtain ⟨-, -, e0, e1, -⟩ := index_facts0 t
  show (V c main_arg1 : S128x64.Idx → EReal) (((cfg0.win 1).blk t).view.emb (ix2 q k)) = _
  refine congrArg (V c main_arg1 : S128x64.Idx → EReal) (funext fun a => Fin.ext ?_)
  match a with
  | ⟨0, _⟩ => show win0_1.index t (0 : Fin 2) * 128 + 1 * q.val = q.val; rw [e0]; omega
  | ⟨1, _⟩ => show win0_1.index t (1 : Fin 2) * 64 + 1 * k.val = k.val; rw [e1]; omega

/-- Block t of the column `s` at (p, 0) is the array at row 5000·t + p. -/
theorem s_block_apply (c : Dev nD) (t : Fin cfg0.N) (p : Fin 5000) (r : Fin 100000) (hr : r.val = t.val * 5000 + p.val) :
    (iblk0 V c 2 t : Vec Ideal S5000x1 .f32) (ix2 p (0 : Fin 1)) = (V c main_arg2 : S100000x1.Idx → EReal) (ix2 r (0 : Fin 1)) := by
  obtain ⟨-, -, -, -, e0, e1, -⟩ := index_facts0 t
  show (V c main_arg2 : S100000x1.Idx → EReal) (((cfg0.win 2).blk t).view.emb (ix2 p (0 : Fin 1))) = _
  refine congrArg (V c main_arg2 : S100000x1.Idx → EReal) (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- Where the output block's entry (p, k) sits in the array: row 5000·t + p, column k. -/
theorem out_block_emb (t : Fin cfg0.N) (p : Fin 5000) (k : Fin 64) (r : Fin 100000) (hr : r.val = t.val * 5000 + p.val) :
    (((cfg0.win 3).blk t).view.emb (ix2 p k) : S100000x64.Idx) = ix2 r k := by
  obtain ⟨-, -, -, -, -, -, e0, e1⟩ := index_facts0 t
  refine funext fun a => Fin.ext ?_
  match a with
  | ⟨0, _⟩ => show win0_3.index t (0 : Fin 2) * 5000 + 1 * p.val = r.val; rw [e0, hr]; omega
  | ⟨1, _⟩ => show win0_3.index t (1 : Fin 2) * 64 + 1 * k.val = k.val; rw [e1]; omega

/-- What point t writes back is block t of the scaled product of the three arrays as the region finds them. -/
theorem flushed0_eq (c : Dev nD) (t : Fin cfg0.N) :
    (dat0 V c).flushed 3 t = ((cfg0.win 3).blk t).view.read (Elt Ideal)
      (Cert.Spec.scaledProduct (V c main_arg0) (V c main_arg1) (V c main_arg2)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets, View.ld_unit_zero (S := S5000x1) zero_offsets]
  have ht : t.val < 20 := lt_of_lt_of_eq t.isLt N_0
  refine funext fun (j : S5000x64.Idx) => ?_
  obtain ⟨p, k, rfl⟩ : ∃ (p : Fin 5000) (k : Fin 64), j = ix2 p k := ⟨j 0, j 1, eq_ix2 j⟩
  obtain ⟨r, hr⟩ : ∃ r : Fin 100000, r.val = t.val * 5000 + p.val := ⟨⟨t.val * 5000 + p.val, by have := p.isLt; omega⟩, rfl⟩
  show k0_pay1 (F := Ideal) (iblk0 V c 0 t) (iblk0 V c 1 t) (iblk0 V c 2 t) (ix2 p k)
    = Cert.Spec.scaledProduct (V c main_arg0) (V c main_arg1) (V c main_arg2) (((cfg0.win 3).blk t).view.emb (ix2 p k))
  refine (linear_norm_apply (iblk0 V c 0 t) (iblk0 V c 1 t) (iblk0 V c 2 t) p k).trans ?_
  rw [out_block_emb t p k r hr, Cert.Spec.scaledProduct_apply]
  unfold Cert.Spec.scaledProductAt
  rw [s_block_apply V c t p r hr]
  refine congrArg (fun z => z * (V c main_arg2 : S100000x1.Idx → EReal) (ix2 r (0 : Fin 1))) (Finset.sum_congr rfl fun q _ => ?_)
  rw [x_block_apply V c t p q r hr, w_block_apply V c t q k]

/-- An index of the array is in point t's output block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Row r lies in the block of point r / 5000: the 20 blocks tile the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := index_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

/-- After region 0 its output array is the scaled product of its three input arrays. -/
theorem final0 (c : Dev nD) :
    (dat0 V c).arrAt 3 cfg0.N = Cert.Spec.scaledProduct (V c main_arg0) (V c main_arg1) (V c main_arg2) :=
  (dat0 V c).arrAt_eq_of_cover 3 (Cert.Spec.scaledProduct (V c main_arg0) (V c main_arg1) (V c main_arg2))
    (fun t _ => flushed0_eq V c t) cover0

end Cert.KernelIdeal.Hand

end
-- ==== Proof.Region1.lean ====
/-
  Region 1 (bias and clamp), for ANY contents `V` of the buffers at its entry.

  Its grid has 10 points; point t handles rows 10000·t … 10000·t + 9999 of the aggregated array and of the output;
  the one row of biases is one block, resident. What point t writes back is rows 10000·t … of ONE whole-array
  function, entry (r, k) = max (a(r, k) + b(0, k)) z, and the 10 blocks tile the 100000 rows.
-/
import proofs.«106755_j3470333575494_2_alg».proof.Proof.Gen.KernelIdeal.Frame
import proofs.«106755_j3470333575494_2_alg».proof.Proof.Spec
import proofs.«106755_j3470333575494_2_alg».proof.Proof.Bodies
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem no_offsets : (![0, 0] : Fin 2 → Nat) = fun _ => 0 := funext fun a => by fin_cases a <;> rfl

/-- The block indices of region 1's three windows, decided over the 10 grid points. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block t of the aggregated array at (p, k) is the array at row 10000·t + p. -/
theorem agg_block_apply (c : Dev nD) (t : Fin cfg1.N) (p : Fin 10000) (k : Fin 64) (r : Fin 100000) (hr : r.val = t.val * 10000 + p.val) :
    (iblk1 V c 0 t : Vec Ideal S10000x64 .f32) (ix2 p k) = (V c main_v10 : S100000x64.Idx → EReal) (ix2 r k) := by
  obtain ⟨e0, e1, -⟩ := index_facts1 t
  show (V c main_v10 : S100000x64.Idx → EReal) (((cfg1.win 0).blk t).view.emb (ix2 p k)) = _
  refine congrArg (V c main_v10 : S100000x64.Idx → EReal) (funext fun a => Fin.ext ?_)
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The one block of the bias row is the array. -/
theorem bias_block_apply (c : Dev nD) (t : Fin cfg1.N) (k : Fin 64) :
    (iblk1 V c 1 t : Vec Ideal S1x64 .f32) (ix2 (0 : Fin 1) k) = (V c main_v11 : S1x64.Idx → EReal) (ix2 (0 : Fin 1) k) := by
  obtain ⟨-, -, e0, e1, -⟩ := index_facts1 t
  show (V c main_v11 : S1x64.Idx → EReal) (((cfg1.win 1).blk t).view.emb (ix2 (0 : Fin 1) k)) = _
  refine congrArg (V c main_v11 : S1x64.Idx → EReal) (funext fun a => Fin.ext ?_)
  match a with
  | ⟨0, _⟩ => show win1_1.index t (0 : Fin 2) * 1 + 1 * 0 = 0; rw [e0]
  | ⟨1, _⟩ => show win1_1.index t (1 : Fin 2) * 64 + 1 * k.val = k.val; rw [e1]; omega

/-- Where the output block's entry (p, k) sits in the array: row 10000·t + p, column k. -/
theorem out_block_emb1 (t : Fin cfg1.N) (p : Fin 10000) (k : Fin 64) (r : Fin 100000) (hr : r.val = t.val * 10000 + p.val) :
    (((cfg1.win 2).blk t).view.emb (ix2 p k) : S100000x64.Idx) = ix2 r k := by
  obtain ⟨-, -, -, -, e0, e1⟩ := index_facts1 t
  refine funext fun a => Fin.ext ?_
  match a with
  | ⟨0, _⟩ => show win1_2.index t (0 : Fin 2) * 10000 + 1 * p.val = r.val; rw [e0, hr]; omega
  | ⟨1, _⟩ => show win1_2.index t (1 : Fin 2) * 64 + 1 * k.val = k.val; rw [e1]; omega

/-- What point t writes back is block t of the row-biased, clamped array of the region's two inputs. -/
theorem flushed1_eq (c : Dev nD) (t : Fin cfg1.N) :
    (dat1 V c).flushed 2 t = ((cfg1.win 2).blk t).view.read (Elt Ideal)
      (Cert.Spec.addRowClamp (V c main_v10) (V c main_v11)) := by
  show (cfg1.win 2).cut (grid1.coords t) ((dat1 V c).after 2 t) = _
  rw [after1_2]
  unfold out1_2
  rw [View.canon_unit_zero no_offsets]
  simp only [View.ld_unit_zero (S := S10000x64) no_offsets, View.ld_unit_zero (S := S1x64) no_offsets]
  have ht : t.val < 10 := lt_of_lt_of_eq t.isLt N_1
  refine funext fun (j : S10000x64.Idx) => ?_
  obtain ⟨p, k, rfl⟩ : ∃ (p : Fin 10000) (k : Fin 64), j = ix2 p k := ⟨j 0, j 1, eq_ix2 j⟩
  obtain ⟨r, hr⟩ : ∃ r : Fin 100000, r.val = t.val * 10000 + p.val := ⟨⟨t.val * 10000 + p.val, by have := p.isLt; omega⟩, rfl⟩
  show k1_pay1 (F := Ideal) (iblk1 V c 0 t) (iblk1 V c 1 t) (ix2 p k)
    = Cert.Spec.addRowClamp (V c main_v10) (V c main_v11) (((cfg1.win 2).blk t).view.emb (ix2 p k))
  refine (bias_relu_apply (iblk1 V c 0 t) (iblk1 V c 1 t) p k).trans ?_
  rw [out_block_emb1 t p k r hr, Cert.Spec.addRowClamp_apply]
  unfold Cert.Spec.addRowClampAt
  rw [agg_block_apply V c t p k r hr, bias_block_apply V c t k]

/-- An index of the array is in point t's output block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v12).slice (win1_2.rect t)).set ↔ _
  rw [View.set_slice_whole, Rect.mem_set_unit]
  exact Iff.rfl

/-- Row r lies in the block of point r / 10000: the 10 blocks tile the array. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e0, e1⟩ := index_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 64 ≤ (i 1).val ∧ (i 1).val < win1_2.index t (1 : Fin 2) * 64 + 64; rw [e1]; omega

/-- After region 1 its output array is the row-biased, clamped array of its two inputs. -/
theorem final1 (c : Dev nD) :
    (dat1 V c).arrAt 2 cfg1.N = Cert.Spec.addRowClamp (V c main_v10) (V c main_v11) :=
  (dat1 V c).arrAt_eq_of_cover 2 (Cert.Spec.addRowClamp (V c main_v10) (V c main_v11))
    (fun t _ => flushed1_eq V c t) cover1

end Cert.KernelIdeal.Hand

end
-- ==== Proof.EdgeSum.lean ====
/-
  The stretch of host operations between the two regions, as ONE function of the array it aggregates and of the
  two index arrays: the source indices are normalised (a negative index has 100000 added), the rows of `nh` at
  those indices are gathered (one row per edge), and the gathered rows are scatter-added into a zero array at the
  destination indices. Both programs apply this same function; nothing below ever opens it.
-/
import proofs.«106755_j3470333575494_2_alg».proof.Proof.Gen.KernelIdeal
import Idealize.ShloMosaic.PureOps.Ideal

noncomputable section

namespace Cert.KernelIdeal.Hand

open Cert.KernelIdeal Cert.KernelIdeal.Gen Idealize.ShloMosaic

/-- Rows of `nh` gathered at the normalised source indices, then summed into the destination rows. -/
def edgeSum (nh : (⟨S100000x64, .f32⟩ : BufTy).Contents (Elt Ideal)) (src dst : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 nh
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.KernelIdeal.Hand

end
-- ==== Proof.HostMiddle.lean ====
/-
  What region 1 finds in its two input arrays: the host stretch between the regions applied to the contents
  region 0 leaves (`Gen.W1`). Its first input is the edge sum of region 0's output array over the two index
  arguments; its second is the 64 biases recast as one row. And: adding a recast row of biases is adding the
  biases, entry (r, k) reading bias k.
-/
import proofs.«106755_j3470333575494_2_alg».proof.Proof.Gen.KernelIdeal.Frame
import proofs.«106755_j3470333575494_2_alg».proof.Proof.Spec
import proofs.«106755_j3470333575494_2_alg».proof.Proof.EdgeSum
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- Region 1's first input array: the edge sum of what region 0 left in its output array. -/
theorem entry1_agg (c : Dev nD) :
    (V2 m ρ c main_v10 : (⟨S100000x64, .f32⟩ : BufTy).Contents (Elt Ideal))
      = edgeSum (W1 m ρ c (Proc.devRef .tc main_v0)) (W1 m ρ c (Proc.devRef .tc main_arg4)) (W1 m ρ c (Proc.devRef .tc main_arg5)) := by
  show StableHlo.after hostOps1 (W1 m ρ c) (Proc.devRef .tc main_v10) = _
  unfold edgeSum
  after_results <;> rfl

/-- Region 1's second input array: the biases recast from [64] to [1, 64]. -/
theorem entry1_bias (c : Dev nD) :
    (V2 m ρ c main_v11 : (⟨S1x64, .f32⟩ : BufTy).Contents (Elt Ideal))
      = shapeCast S1x64 (W1 m ρ c (Proc.devRef .tc main_arg3) : (⟨S64, .f32⟩ : BufTy).Contents (Elt Ideal)) shapeCasts_S64_S1x64 := by
  show StableHlo.after hostOps1 (W1 m ρ c) (Proc.devRef .tc main_v11) = _
  after_results <;> rfl

/-- Adding the recast row and clamping is adding the biases and clamping. -/
theorem addRowClamp_recast (a : FVec Ideal S100000x64 .f32) (b : FVec Ideal S64 .f32) :
    Cert.Spec.addRowClamp a (shapeCast S1x64 b shapeCasts_S64_S1x64) = Cert.Spec.addBiasClamp a b := by
  funext i
  obtain ⟨r, k, rfl⟩ : ∃ (r : Fin 100000) (k : Fin 64), i = ix2 r k := ⟨i 0, i 1, eq_ix2 i⟩
  rw [Cert.Spec.addRowClamp_apply, Cert.Spec.addBiasClamp_apply]
  unfold Cert.Spec.addRowClampAt Cert.Spec.addBiasClampAt
  rw [shapeCast_a_1a_apply]

end Cert.KernelIdeal.Hand

end
-- ==== Proof.KernelValue.lean ====
/-
  The idealized kernel program's result as a function of the six arguments.

  The result buffer ends at the last boundary's contents. That is region 1's output array: the row-biased,
  clamped array of region 1's two inputs. Those are the edge sum of region 0's output array and the recast biases;
  region 0's output array is the scaled product of the first three arguments as launched; the index arguments and
  the biases reach the host stretch as launched, no region writing them.
-/
import proofs.«106755_j3470333575494_2_alg».proof.Proof.KernelRun
import proofs.«106755_j3470333575494_2_alg».proof.Proof.Region0
import proofs.«106755_j3470333575494_2_alg».proof.Proof.Region1
import proofs.«106755_j3470333575494_2_alg».proof.Proof.HostMiddle

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After region 0 its output array is the scaled product of the first three arguments as launched. -/
theorem W1_scaled (c : Dev nD) :
    (W1 m ρ c (Proc.devRef .tc main_v0) : (⟨S100000x64, .f32⟩ : BufTy).Contents (Elt Ideal))
      = Cert.Spec.scaledProduct (m ((c : Thread nD τ).loc main_arg0)) (m ((c : Thread nD τ).loc main_arg1)) (m ((c : Thread nD τ).loc main_arg2)) :=
  (W1_arr m ρ c 3).trans (final0 (V0 m ρ) c)

/-- Region 0 writes neither index argument nor the biases. -/
theorem W1_src (c : Dev nD) : W1 m ρ c (Proc.devRef .tc main_arg4) = m ((c : Thread nD τ).loc main_arg4) :=
  (W1_of_ne m ρ c main_arg4 (by decide)).trans rfl
theorem W1_dst (c : Dev nD) : W1 m ρ c (Proc.devRef .tc main_arg5) = m ((c : Thread nD τ).loc main_arg5) :=
  (W1_of_ne m ρ c main_arg5 (by decide)).trans rfl
theorem W1_bias (c : Dev nD) : W1 m ρ c (Proc.devRef .tc main_arg3) = m ((c : Thread nD τ).loc main_arg3) :=
  (W1_of_ne m ρ c main_arg3 (by decide)).trans rfl

/-- The result buffer's last contents, as a function of the launch memory. -/
theorem result_value (c : Dev nD) :
    (W3 m ρ c (Proc.devRef .tc main_v12) : (⟨S100000x64, .f32⟩ : BufTy).Contents (Elt Ideal))
      = Cert.Spec.addBiasClamp (edgeSum (Cert.Spec.scaledProduct (m ((c : Thread nD τ).loc main_arg0)) (m ((c : Thread nD τ).loc main_arg1)) (m ((c : Thread nD τ).loc main_arg2))) (m ((c : Thread nD τ).loc main_arg4)) (m ((c : Thread nD τ).loc main_arg5))) (m ((c : Thread nD τ).loc main_arg3)) := by
  refine (W3_arr m ρ c 2).trans ?_
  rw [final1 (V2 m ρ) c, entry1_agg m ρ c, entry1_bias m ρ c, W1_scaled m ρ c, W1_src m ρ c, W1_dst m ρ c, W1_bias m ρ c]
  exact addRowClamp_recast _ _

/-- Every weakly fair execution of the idealized kernel program ends with the result buffer at that function of
    the launch memory and the six arguments as launched. -/
theorem run_value : θ_run defs (onTc (τ := τ) (main (F := Ideal))) ⟨m, fun _ => 0, ρ⟩ (fun r => ∀ c : Dev nD,
      r.2.mem ((c.tc : Thread nD τ).loc main_v12) = Cert.Spec.addBiasClamp (edgeSum (Cert.Spec.scaledProduct (m ((c : Thread nD τ).loc main_arg0)) (m ((c : Thread nD τ).loc main_arg1)) (m ((c : Thread nD τ).loc main_arg2))) (m ((c : Thread nD τ).loc main_arg4)) (m ((c : Thread nD τ).loc main_arg5))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_value m ρ c), (h c).2⟩) (run_named m ρ)

end Cert.KernelIdeal.Hand

end
-- ==== Proof.RefValue.lean ====
/-
  The reference's result as the same function of the six arguments.

  Its product stage, read at (r, k), is the sum over the 128 contracted positions of x(r, q) · w(q, k), and the
  multiply by the spread column reads s(r, 0): the scaled product. Its gather and scatter are the edge sum, word
  for word. Its two broadcasts of the biases read bias k at (r, k), and the maximum against the spread zero is the
  clamp at zero.
-/
import proofs.«106755_j3470333575494_2_alg».proof.Proof.Gen.ReferenceIdeal.Read
import proofs.«106755_j3470333575494_2_alg».proof.Proof.Spec
import proofs.«106755_j3470333575494_2_alg».proof.Proof.EdgeSum

noncomputable section

namespace Cert.ReferenceIdeal.RefValue

open Cert.ReferenceIdeal Cert.ReferenceIdeal.Gen Cert.ReferenceIdeal.Read Idealize.ShloMosaic Idealize.ShloMosaic.ValueIdx

/-- The reference's scaled stage is the scaled product. -/
theorem scaled_eq (x0 : (⟨S100000x128, .f32⟩ : BufTy).Contents (Elt Ideal)) (x1 : (⟨S128x64, .f32⟩ : BufTy).Contents (Elt Ideal)) (x2 : (⟨S100000x1, .f32⟩ : BufTy).Contents (Elt Ideal)) :
    val_main_v2 (F := Ideal) x0 x1 x2 = Cert.Spec.scaledProduct x0 x1 x2 := by
  funext i
  obtain ⟨r, k, rfl⟩ : ∃ (r : Fin 100000) (k : Fin 64), i = ix2 r k := ⟨i 0, i 1, eq_ix2 i⟩
  rw [val_main_v2_apply, val_main_v0_apply, val_main_v1_apply, Cert.Spec.scaledProduct_apply]
  unfold Cert.Spec.scaledProductAt
  have e1 : ∀ q : Fin 128, lidx_main_v0 (ix2 r k) q = ix2 r q := fun q => funext fun a => Fin.ext (by
    match a with
    | ⟨0, _⟩ => rfl
    | ⟨1, _⟩ => rfl)
  have e2 : ∀ q : Fin 128, ridx_main_v0 (ix2 r k) q = ix2 q k := fun q => funext fun a => Fin.ext (by
    match a with
    | ⟨0, _⟩ => rfl
    | ⟨1, _⟩ => rfl)
  have e3 : idx_main_v1 (ix2 r k) = ix2 r (0 : Fin 1) := funext fun a => Fin.ext (by
    match a with
    | ⟨0, _⟩ => rfl
    | ⟨1, _⟩ => rfl)
  simp only [e1, e2, e3]
  rfl

/-- The reference's gather and scatter stages are the edge sum of its scaled stage. -/
theorem edge_eq (x0 : (⟨S100000x128, .f32⟩ : BufTy).Contents (Elt Ideal)) (x1 : (⟨S128x64, .f32⟩ : BufTy).Contents (Elt Ideal)) (x2 : (⟨S100000x1, .f32⟩ : BufTy).Contents (Elt Ideal)) (x4 x5 : (⟨S1600000, .i32⟩ : BufTy).Contents (Elt Ideal)) :
    val_main_v12 (F := Ideal) x0 x1 x2 x4 x5 = Cert.KernelIdeal.Hand.edgeSum (val_main_v2 (F := Ideal) x0 x1 x2) x4 x5 := rfl

/-- The reference's result: the biases added to the edge sum of the scaled product, clamped at zero. -/
theorem result_eq (x0 : (⟨S100000x128, .f32⟩ : BufTy).Contents (Elt Ideal)) (x1 : (⟨S128x64, .f32⟩ : BufTy).Contents (Elt Ideal)) (x2 : (⟨S100000x1, .f32⟩ : BufTy).Contents (Elt Ideal)) (x3 : (⟨S64, .f32⟩ : BufTy).Contents (Elt Ideal)) (x4 x5 : (⟨S1600000, .i32⟩ : BufTy).Contents (Elt Ideal)) :
    val_main_v16 (F := Ideal) x0 x1 x2 x3 x4 x5
      = Cert.Spec.addBiasClamp (Cert.KernelIdeal.Hand.edgeSum (Cert.Spec.scaledProduct x0 x1 x2) x4 x5) x3 := by
  funext i
  obtain ⟨r, k, rfl⟩ : ∃ (r : Fin 100000) (k : Fin 64), i = ix2 r k := ⟨i 0, i 1, eq_ix2 i⟩
  rw [val_main_v16_apply, val_main_v15_apply, val_main_v14_apply, val_main_v13_apply, val_main_call0_v0_apply,
    val_main_call0_cst_apply, edge_eq, scaled_eq, Cert.Spec.addBiasClamp_apply]
  unfold Cert.Spec.addBiasClampAt
  have e : idx_main_v13 (idx_main_v14 (ix2 r k)) = ix1 k := funext fun a => Fin.ext (by
    match a with
    | ⟨0, _⟩ => rfl)
  rw [e]
  rfl

end Cert.ReferenceIdeal.RefValue

end
-- ==== Proof.lean ====
/-
  A graph-convolution layer, tiled kernel against plain reference, equal over the extended reals.

  Both programs compute, for node features x (100000 × 128), weights w (128 × 64), a per-node scale s
  (100000 × 1), biases b (64) and an edge list (src, dst) of 1600000 edges:

      out(r, k) = max ( Σ_{e : dst e = r} ((x · w) ⊙ s)(src e, k) + b(k), 0 ).

  The kernel program does the linear transform with the row scale in one pipelined region over 20 blocks of 5000
  rows (a block product into a zero accumulator; the change of float format before the product is the identity on
  extended reals), gathers and scatter-adds on the host, and adds the biases and clamps in a second pipelined
  region over 10 blocks of 10000 rows. The reference does one whole product, the same gather and scatter-add, one
  add and one maximum. The two sides meet in three facts: a block product read at an index is the same sum of 128
  products as the whole product; blocks of rows tile the rows; the gather and scatter-add are literally the same
  function on both sides, so they are never opened. No law of the extended reals beyond this is used, so the
  finiteness of the inputs is not needed.

  The kernel's idealization rewrote no operation, so its faithfulness claim is `True`.
-/
import proofs.«106755_j3470333575494_2_alg».proof.Defs
import proofs.«106755_j3470333575494_2_alg».proof.Proof.Gen.Kernel
import proofs.«106755_j3470333575494_2_alg».proof.Proof.Gen.Kernel.Frame
import proofs.«106755_j3470333575494_2_alg».proof.Proof.Gen.KernelIdeal
import proofs.«106755_j3470333575494_2_alg».proof.Proof.Gen.KernelIdeal.Frame
import proofs.«106755_j3470333575494_2_alg».proof.Proof.Gen.ReferenceIdeal
import proofs.«106755_j3470333575494_2_alg».proof.Proof.Gen.ReferenceIdeal.Run
import proofs.«106755_j3470333575494_2_alg».proof.Proof.Gen.ReferenceIdeal.Read
import proofs.«106755_j3470333575494_2_alg».proof.Proof.Gen.Pre_finite_inputs
import proofs.«106755_j3470333575494_2_alg».proof.Proof.KernelValue
import proofs.«106755_j3470333575494_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments both programs end with the biased, clamped edge sum of the scaled
    product of the arguments: the kernel program by its two regions read as whole-array functions around the host
    stretch, the reference by its run read one operation at a time. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v16_eq, Cert.ReferenceIdeal.RefValue.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
